-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x32x32x1024 : Shape := ⟨5, ![1, 8, 32, 32, 1024]⟩
abbrev S1024x3584 : Shape := ⟨2, ![1024, 3584]⟩
abbrev S3584 : Shape := ⟨1, ![3584]⟩
abbrev S_ : Shape := ⟨0, ![]⟩

class Facts : Prop where
  bcast_S_S1x8x32x32x1024 : S_.BroadcastsInDim S1x8x32x32x1024 (![] : Fin 0 → Fin S1x8x32x32x1024.rank)
  reducesTo_S1x8x32x32x1024_S_d0_1_2_3_4 : S1x8x32x32x1024.ReducesTo [0, 1, 2, 3, 4] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S3584 : S_.BroadcastsInDim S3584 (![] : Fin 0 → Fin S3584.rank)
  reducesTo_S3584_S_d0 : S3584.ReducesTo [0] S_

variable [Facts]

def fn {F : FTy → Type} [FloatOps F] (main_arg0 : FVec F S1x8x32x32x1024 .f32) (main_arg1 : FVec F S1024x3584 .f32) (main_arg2 : FVec F S3584 .f32) : IVec S_ 1 :=
  let main_v0 : FVec F S1x8x32x32x1024 .f32 := Host.absf main_arg0
  let main_cst : FVec F S_ .f32 := constant S_ .f32 0x7F800000#32
  let main_v1 : FVec F S1x8x32x32x1024 .f32 := broadcastInDim S1x8x32x32x1024 ![] bcast_S_S1x8x32x32x1024 main_cst
  let main_v2 : IVec S1x8x32x32x1024 1 := cmpf .olt main_v0 main_v1
  let main_c : IVec S_ 1 := constantI S_ 1 1#1
  let main_v3 : IVec S_ 1 := (fun x v => Host.reduce IntOp.andi x v reducesTo_S1x8x32x32x1024_S_d0_1_2_3_4 h_S_) main_v2 main_c
  let main_v4 : FVec F S1024x3584 .f32 := Host.absf main_arg1
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  main_v13
-- ==== Kernel.lean ====
abbrev S1x8x32x32x1024 : Shape := ⟨5, ![1, 8, 32, 32, 1024]⟩
abbrev S1024x3584 : Shape := ⟨2, ![1024, 3584]⟩
abbrev S3584 : Shape := ⟨1, ![3584]⟩
abbrev S1x3584 : Shape := ⟨2, ![1, 3584]⟩
abbrev S1x32x256x256x14 : Shape := ⟨5, ![1, 32, 256, 256, 14]⟩
abbrev S1x1x1x32x1024 : Shape := ⟨5, ![1, 1, 1, 32, 1024]⟩
abbrev S1x4x8x256x14 : Shape := ⟨5, ![1, 4, 8, 256, 14]⟩
abbrev S32x1024 : Shape := ⟨2, ![32, 1024]⟩
abbrev S32x3584 : Shape := ⟨2, ![32, 3584]⟩
abbrev S32x14x256 : Shape := ⟨3, ![32, 14, 256]⟩
abbrev S32x14x8 : Shape := ⟨3, ![32, 14, 8]⟩
abbrev S32x8x14 : Shape := ⟨3, ![32, 8, 14]⟩
abbrev S256x14 : Shape := ⟨2, ![256, 14]⟩
abbrev S1x1x1x256x14 : Shape := ⟨5, ![1, 1, 1, 256, 14]⟩

abbrev nBuf : Space → Nat
  | .hbm => 5
  | .vmem => 6
  | .smem => 0
  | _ => 0

abbrev bufTy : (tb : Table) → Fin (tcTables nBuf tb) → BufTy
  | .hbm, ⟨0, _⟩ => ⟨S1x8x32x32x1024, .f32⟩
  | .hbm, ⟨1, _⟩ => ⟨S1024x3584, .f32⟩
  | .hbm, ⟨2, _⟩ => ⟨S3584, .f32⟩
  | .hbm, ⟨3, _⟩ => ⟨S1x3584, .f32⟩
  | .hbm, ⟨4, _⟩ => ⟨S1x32x256x256x14, .f32⟩
  | .local _ .vmem, ⟨0, _⟩ => ⟨S1x1x1x32x1024, .f32⟩
  | .local _ .vmem, ⟨1, _⟩ => ⟨S1x1x1x32x1024, .f32⟩
  | .local _ .vmem, ⟨2, _⟩ => ⟨S1024x3584, .f32⟩
  | .local _ .vmem, ⟨3, _⟩ => ⟨S1x3584, .f32⟩
  | .local _ .vmem, ⟨4, _⟩ => ⟨S1x4x8x256x14, .f32⟩
  | .local _ .vmem, ⟨5, _⟩ => ⟨S1x4x8x256x14, .f32⟩
  | _, _ => ⟨S1x8x32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 32], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1024x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x4x8x256x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S3584_S1x3584 : S3584.ShapeCasts S1x3584
  inb_S1x1x1x32x1024_S1x1x1x32x1024_0_0_0_0_0 : ∀ a, (![0, 0, 0, 0, 0] : Fin 5 → Nat) a + S1x1x1x32x1024.size a ≤ S1x1x1x32x1024.size a
  h_S1x1x1x32x1024 : 0 < S1x1x1x32x1024.numel
  shapeCasts_S1x1x1x32x1024_S32x1024 : S1x1x1x32x1024.ShapeCasts S32x1024
  inb_S1024x3584_S1024x3584_0_0 : ∀ a, (![0, 0] : Fin 2 → Nat) a + S1024x3584.size a ≤ S1024x3584.size a
  h_S1024x3584 : 0 < S1024x3584.numel
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S32x3584 : S1x3584.Broadcasts S32x3584
  shapeCasts_S32x3584_S32x14x256 : S32x3584.ShapeCasts S32x14x256
  slices_S32x14x256_o0_0_0_S32x14x8 : S32x14x256.Slices ![0, 0, 0] S32x14x8
  transposes_S32x14x8_p0_2_1_S32x8x14 : S32x14x8.Transposes [0, 2, 1] S32x8x14
  shapeCasts_S32x8x14_S256x14 : S32x8x14.ShapeCasts S256x14
  inb_S1x4x8x256x14_S1x1x1x256x14_0_0_0_0_0 : ∀ a, (![0, 0, 0, 0, 0] : Fin 5 → Nat) a + S1x1x1x256x14.size a ≤ S1x4x8x256x14.size a
  h_S1x1x1x256x14 : 0 < S1x1x1x256x14.numel
  shapeCasts_S1x1x1x256x14_S256x14 : S1x1x1x256x14.ShapeCasts S256x14
  shapeCasts_S256x14_S1x1x1x256x14 : S256x14.ShapeCasts S1x1x1x256x14
  slices_S32x14x256_o0_0_8_S32x14x8 : S32x14x256.Slices ![0, 0, 8] S32x14x8
  inb_S1x4x8x256x14_S1x1x1x256x14_0_0_1_0_0 : ∀ a, (![0, 0, 1, 0, 0] : Fin 5 → Nat) a + S1x1x1x256x14.size a ≤ S1x4x8x256x14.size a
  slices_S32x14x256_o0_0_16_S32x14x8 : S32x14x256.Slices ![0, 0, 16] S32x14x8
  inb_S1x4x8x256x14_S1x1x1x256x14_0_0_2_0_0 : ∀ a, (![0, 0, 2, 0, 0] : Fin 5 → Nat) a + S1x1x1x256x14.size a ≤ S1x4x8x256x14.size a
  slices_S32x14x256_o0_0_24_S32x14x8 : S32x14x256.Slices ![0, 0, 24] S32x14x8
  inb_S1x4x8x256x14_S1x1x1x256x14_0_0_3_0_0 : ∀ a, (![0, 0, 3, 0, 0] : Fin 5 → Nat) a + S1x1x1x256x14.size a ≤ S1x4x8x256x14.size a
  slices_S32x14x256_o0_0_32_S32x14x8 : S32x14x256.Slices ![0, 0, 32] S32x14x8
  inb_S1x4x8x256x14_S1x1x1x256x14_0_0_4_0_0 : ∀ a, (![0, 0, 4, 0, 0] : Fin 5 → Nat) a + S1x1x1x256x14.size a ≤ S1x4x8x256x14.size a
  slices_S32x14x256_o0_0_40_S32x14x8 : S32x14x256.Slices ![0, 0, 40] S32x14x8
  inb_S1x4x8x256x14_S1x1x1x256x14_0_0_5_0_0 : ∀ a, (![0, 0, 5, 0, 0] : Fin 5 → Nat) a + S1x1x1x256x14.size a ≤ S1x4x8x256x14.size a
  slices_S32x14x256_o0_0_48_S32x14x8 : S32x14x256.Slices ![0, 0, 48] S32x14x8
  inb_S1x4x8x256x14_S1x1x1x256x14_0_0_6_0_0 : ∀ a, (![0, 0, 6, 0, 0] : Fin 5 → Nat) a + S1x1x1x256x14.size a ≤ S1x4x8x256x14.size a
  slices_S32x14x256_o0_0_56_S32x14x8 : S32x14x256.Slices ![0, 0, 56] S32x14x8
  inb_S1x4x8x256x14_S1x1x1x256x14_0_0_7_0_0 : ∀ a, (![0, 0, 7, 0, 0] : Fin 5 → Nat) a + S1x1x1x256x14.size a ≤ S1x4x8x256x14.size a
  slices_S32x14x256_o0_0_64_S32x14x8 : S32x14x256.Slices ![0, 0, 64] S32x14x8
  inb_S1x4x8x256x14_S1x1x1x256x14_0_1_0_0_0 : ∀ a, (![0, 1, 0, 0, 0] : Fin 5 → Nat) a + S1x1x1x256x14.size a ≤ S1x4x8x256x14.size a
  slices_S32x14x256_o0_0_72_S32x14x8 : S32x14x256.Slices ![0, 0, 72] S32x14x8
  inb_S1x4x8x256x14_S1x1x1x256x14_0_1_1_0_0 : ∀ a, (![0, 1, 1, 0, 0] : Fin 5 → Nat) a + S1x1x1x256x14.size a ≤ S1x4x8x256x14.size a
  slices_S32x14x256_o0_0_80_S32x14x8 : S32x14x256.Slices ![0, 0, 80] S32x14x8
  inb_S1x4x8x256x14_S1x1x1x256x14_0_1_2_0_0 : ∀ a, (![0, 1, 2, 0, 0] : Fin 5 → Nat) a + S1x1x1x256x14.size a ≤ S1x4x8x256x14.size a
  slices_S32x14x256_o0_0_88_S32x14x8 : S32x14x256.Slices ![0, 0, 88] S32x14x8
  inb_S1x4x8x256x14_S1x1x1x256x14_0_1_3_0_0 : ∀ a, (![0, 1, 3, 0, 0] : Fin 5 → Nat) a + S1x1x1x256x14.size a ≤ S1x4x8x256x14.size a
  slices_S32x14x256_o0_0_96_S32x14x8 : S32x14x256.Slices ![0, 0, 96] S32x14x8
  inb_S1x4x8x256x14_S1x1x1x256x14_0_1_4_0_0 : ∀ a, (![0, 1, 4, 0, 0] : Fin 5 → Nat) a + S1x1x1x256x14.size a ≤ S1x4x8x256x14.size a
  slices_S32x14x256_o0_0_104_S32x14x8 : S32x14x256.Slices ![0, 0, 104] S32x14x8
  inb_S1x4x8x256x14_S1x1x1x256x14_0_1_5_0_0 : ∀ a, (![0, 1, 5, 0, 0] : Fin 5 → Nat) a + S1x1x1x256x14.size a ≤ S1x4x8x256x14.size a
  slices_S32x14x256_o0_0_112_S32x14x8 : S32x14x256.Slices ![0, 0, 112] S32x14x8
  inb_S1x4x8x256x14_S1x1x1x256x14_0_1_6_0_0 : ∀ a, (![0, 1, 6, 0, 0] : Fin 5 → Nat) a + S1x1x1x256x14.size a ≤ S1x4x8x256x14.size a
  slices_S32x14x256_o0_0_120_S32x14x8 : S32x14x256.Slices ![0, 0, 120] S32x14x8
  inb_S1x4x8x256x14_S1x1x1x256x14_0_1_7_0_0 : ∀ a, (![0, 1, 7, 0, 0] : Fin 5 → Nat) a + S1x1x1x256x14.size a ≤ S1x4x8x256x14.size a
  slices_S32x14x256_o0_0_128_S32x14x8 : S32x14x256.Slices ![0, 0, 128] S32x14x8
  inb_S1x4x8x256x14_S1x1x1x256x14_0_2_0_0_0 : ∀ a, (![0, 2, 0, 0, 0] : Fin 5 → Nat) a + S1x1x1x256x14.size a ≤ S1x4x8x256x14.size a
  slices_S32x14x256_o0_0_136_S32x14x8 : S32x14x256.Slices ![0, 0, 136] S32x14x8
  inb_S1x4x8x256x14_S1x1x1x256x14_0_2_1_0_0 : ∀ a, (![0, 2, 1, 0, 0] : Fin 5 → Nat) a + S1x1x1x256x14.size a ≤ S1x4x8x256x14.size a
  slices_S32x14x256_o0_0_144_S32x14x8 : S32x14x256.Slices ![0, 0, 144] S32x14x8
  inb_S1x4x8x256x14_S1x1x1x256x14_0_2_2_0_0 : ∀ a, (![0, 2, 2, 0, 0] : Fin 5 → Nat) a + S1x1x1x256x14.size a ≤ S1x4x8x256x14.size a
  slices_S32x14x256_o0_0_152_S32x14x8 : S32x14x256.Slices ![0, 0, 152] S32x14x8
  inb_S1x4x8x256x14_S1x1x1x256x14_0_2_3_0_0 : ∀ a, (![0, 2, 3, 0, 0] : Fin 5 → Nat) a + S1x1x1x256x14.size a ≤ S1x4x8x256x14.size a
  slices_S32x14x256_o0_0_160_S32x14x8 : S32x14x256.Slices ![0, 0, 160] S32x14x8
  inb_S1x4x8x256x14_S1x1x1x256x14_0_2_4_0_0 : ∀ a, (![0, 2, 4, 0, 0] : Fin 5 → Nat) a + S1x1x1x256x14.size a ≤ S1x4x8x256x14.size a
  slices_S32x14x256_o0_0_168_S32x14x8 : S32x14x256.Slices ![0, 0, 168] S32x14x8
  inb_S1x4x8x256x14_S1x1x1x256x14_0_2_5_0_0 : ∀ a, (![0, 2, 5, 0, 0] : Fin 5 → Nat) a + S1x1x1x256x14.size a ≤ S1x4x8x256x14.size a
  slices_S32x14x256_o0_0_176_S32x14x8 : S32x14x256.Slices ![0, 0, 176] S32x14x8
  inb_S1x4x8x256x14_S1x1x1x256x14_0_2_6_0_0 : ∀ a, (![0, 2, 6, 0, 0] : Fin 5 → Nat) a + S1x1x1x256x14.size a ≤ S1x4x8x256x14.size a
  slices_S32x14x256_o0_0_184_S32x14x8 : S32x14x256.Slices ![0, 0, 184] S32x14x8
  inb_S1x4x8x256x14_S1x1x1x256x14_0_2_7_0_0 : ∀ a, (![0, 2, 7, 0, 0] : Fin 5 → Nat) a + S1x1x1x256x14.size a ≤ S1x4x8x256x14.size a
  slices_S32x14x256_o0_0_192_S32x14x8 : S32x14x256.Slices ![0, 0, 192] S32x14x8
  inb_S1x4x8x256x14_S1x1x1x256x14_0_3_0_0_0 : ∀ a, (![0, 3, 0, 0, 0] : Fin 5 → Nat) a + S1x1x1x256x14.size a ≤ S1x4x8x256x14.size a
  slices_S32x14x256_o0_0_200_S32x14x8 : S32x14x256.Slices ![0, 0, 200] S32x14x8
  inb_S1x4x8x256x14_S1x1x1x256x14_0_3_1_0_0 : ∀ a, (![0, 3, 1, 0, 0] : Fin 5 → Nat) a + S1x1x1x256x14.size a ≤ S1x4x8x256x14.size a
  slices_S32x14x256_o0_0_208_S32x14x8 : S32x14x256.Slices ![0, 0, 208] S32x14x8
  inb_S1x4x8x256x14_S1x1x1x256x14_0_3_2_0_0 : ∀ a, (![0, 3, 2, 0, 0] : Fin 5 → Nat) a + S1x1x1x256x14.size a ≤ S1x4x8x256x14.size a
  slices_S32x14x256_o0_0_216_S32x14x8 : S32x14x256.Slices ![0, 0, 216] S32x14x8
  inb_S1x4x8x256x14_S1x1x1x256x14_0_3_3_0_0 : ∀ a, (![0, 3, 3, 0, 0] : Fin 5 → Nat) a + S1x1x1x256x14.size a ≤ S1x4x8x256x14.size a
  slices_S32x14x256_o0_0_224_S32x14x8 : S32x14x256.Slices ![0, 0, 224] S32x14x8
  inb_S1x4x8x256x14_S1x1x1x256x14_0_3_4_0_0 : ∀ a, (![0, 3, 4, 0, 0] : Fin 5 → Nat) a + S1x1x1x256x14.size a ≤ S1x4x8x256x14.size a
  slices_S32x14x256_o0_0_232_S32x14x8 : S32x14x256.Slices ![0, 0, 232] S32x14x8
  inb_S1x4x8x256x14_S1x1x1x256x14_0_3_5_0_0 : ∀ a, (![0, 3, 5, 0, 0] : Fin 5 → Nat) a + S1x1x1x256x14.size a ≤ S1x4x8x256x14.size a
  slices_S32x14x256_o0_0_240_S32x14x8 : S32x14x256.Slices ![0, 0, 240] S32x14x8
  inb_S1x4x8x256x14_S1x1x1x256x14_0_3_6_0_0 : ∀ a, (![0, 3, 6, 0, 0] : Fin 5 → Nat) a + S1x1x1x256x14.size a ≤ S1x4x8x256x14.size a
  slices_S32x14x256_o0_0_248_S32x14x8 : S32x14x256.Slices ![0, 0, 248] S32x14x8
  inb_S1x4x8x256x14_S1x1x1x256x14_0_3_7_0_0 : ∀ a, (![0, 3, 7, 0, 0] : Fin 5 → Nat) a + S1x1x1x256x14.size a ≤ S1x4x8x256x14.size a
  dot_S32x1024_S1024x3584_S32x3584_1_0_0_1_n_n_wf : DotDims.WF S32x1024 S1024x3584 S32x3584 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x32x1024.size a ≤ S1x8x32x32x1024.size a
  hwx0_0 : ∀ i : grid0.Coords, EltTy.bits .f32 = 32 ∨ (Rect.block (s := S1x8x32x32x1024) S1x1x1x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3584.size a ≤ S1024x3584.size a
  hwx0_1 : ∀ i : grid0.Coords, EltTy.bits .f32 = 32 ∨ (Rect.block (s := S1024x3584) S1024x3584.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x3584.size a
  hwx0_2 : ∀ i : grid0.Coords, EltTy.bits .f32 = 32 ∨ (Rect.block (s := S1x3584) S1x3584.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8x256x14.size a ≤ S1x32x256x256x14.size a
  hwx0_3 : ∀ i : grid0.Coords, EltTy.bits .f32 = 32 ∨ (Rect.block (s := S1x32x256x256x14) S1x4x8x256x14.size (cc0_transform_3 i) (hinb0_3 i)).WholeWords (EltTy.packing .f32)

variable [Facts₀]

def dot_S32x1024_S1024x3584_S32x3584_1_0_0_1_n_n : DotDims S32x1024 S1024x3584 S32x3584 where
  lhsContracting := [1]
  rhsContracting := [0]
  lhsNonContracting := [0]
  rhsNonContracting := [1]
  lhsBatch := []
  rhsBatch := []
  wf := dot_S32x1024_S1024x3584_S32x3584_1_0_0_1_n_n_wf

abbrev win0_0 : Pipeline.Window sig grid0 :=
  Pipeline.Window.ofSpec (Memref.whole main_arg0) S1x1x1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3584.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4x8x256x14.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x8x32x32x1024 : Shape := ⟨5, ![1, 8, 32, 32, 1024]⟩
abbrev S1024x3584 : Shape := ⟨2, ![1024, 3584]⟩
abbrev S3584 : Shape := ⟨1, ![3584]⟩
abbrev S1x8x32x32x3584 : Shape := ⟨5, ![1, 8, 32, 32, 3584]⟩
abbrev S1x1x1x1x3584 : Shape := ⟨5, ![1, 1, 1, 1, 3584]⟩
abbrev S1x8x32x32x14x4x8x8 : Shape := ⟨8, ![1, 8, 32, 32, 14, 4, 8, 8]⟩
abbrev S1x8x4x32x8x32x8x14 : Shape := ⟨8, ![1, 8, 4, 32, 8, 32, 8, 14]⟩
abbrev S1x32x256x256x14 : Shape := ⟨5, ![1, 32, 256, 256, 14]⟩

abbrev nBuf : Space → Nat
  | .hbm => 10
  | .vmem => 0
  | .smem => 0
  | _ => 0

abbrev bufTy : (tb : Table) → Fin (tcTables nBuf tb) → BufTy
  | .hbm, ⟨0, _⟩ => ⟨S1x8x32x32x1024, .f32⟩
  | .hbm, ⟨1, _⟩ => ⟨S1024x3584, .f32⟩
  | .hbm, ⟨2, _⟩ => ⟨S3584, .f32⟩
  | .hbm, ⟨3, _⟩ => ⟨S1x8x32x32x3584, .f32⟩
  | .hbm, ⟨4, _⟩ => ⟨S1x1x1x1x3584, .f32⟩
  | .hbm, ⟨5, _⟩ => ⟨S1x8x32x32x3584, .f32⟩
  | .hbm, ⟨6, _⟩ => ⟨S1x8x32x32x3584, .f32⟩
  | .hbm, ⟨7, _⟩ => ⟨S1x8x32x32x14x4x8x8, .f32⟩
  | .hbm, ⟨8, _⟩ => ⟨S1x8x4x32x8x32x8x14, .f32⟩
  | .hbm, ⟨9, _⟩ => ⟨S1x32x256x256x14, .f32⟩
  | _, _ => ⟨S1x8x32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S3584_S1x1x1x1x3584_4 : S3584.BroadcastsInDim S1x1x1x1x3584 (![4] : Fin 1 → Fin S1x1x1x1x3584.rank)
  bcast_S1x1x1x1x3584_S1x8x32x32x3584_0_1_2_3_4 : S1x1x1x1x3584.BroadcastsInDim S1x8x32x32x3584 (![0, 1, 2, 3, 4] : Fin 5 → Fin S1x8x32x32x3584.rank)
  shapeCasts_S1x8x32x32x3584_S1x8x32x32x14x4x8x8 : S1x8x32x32x3584.ShapeCasts S1x8x32x32x14x4x8x8
  transposes_S1x8x32x32x14x4x8x8_S1x8x4x32x8x32x8x14_0_1_5_2_6_3_7_4 : S1x8x32x32x14x4x8x8.Transposes [0, 1, 5, 2, 6, 3, 7, 4] S1x8x4x32x8x32x8x14
  shapeCasts_S1x8x4x32x8x32x8x14_S1x32x256x256x14 : S1x8x4x32x8x32x8x14.ShapeCasts S1x32x256x256x14
  dot_S1x8x32x32x1024_S1024x3584_S1x8x32x32x3584_4_0_0123_1_n_n_wf : DotDims.WF S1x8x32x32x1024 S1024x3584 S1x8x32x32x3584 [4] [0] [0, 1, 2, 3] [1] [] []

variable [Facts₀]

def dot_S1x8x32x32x1024_S1024x3584_S1x8x32x32x3584_4_0_0123_1_n_n : DotDims S1x8x32x32x1024 S1024x3584 S1x8x32x32x3584 where
  lhsContracting := [4]
  rhsContracting := [0]
  lhsNonContracting := [0, 1, 2, 3]
  rhsNonContracting := [1]
  lhsBatch := []
  rhsBatch := []
  wf := dot_S1x8x32x32x1024_S1024x3584_S1x8x32x32x3584_4_0_0123_1_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Piece.lean ====
/-
  One stored piece read at a coordinate. The kernel body computes the convolution of a (t, h) slab as a
  [32, 14, 256] array `Y` (pixel column w, output channel c, sub-voxel position q = r_t * 64 + r_h * 8 + r_w) and stores
  it in 32 pieces, one per (r_t, r_h): the slice of the last axis at offset o = (r_t * 8 + r_h) * 8 of width 8, with its two
  last axes exchanged, flattened to [256, 14] and given three leading unit axes. Whatever the offset, such a piece at
  (0, 0, 0, r, c) is `Y` at (r / 8, c, o + r % 8): the row r of the flattened piece is pixel column r / 8 and sub-voxel
  column r % 8.
-/
import Idealize.ShloMosaic.Lib.Pipeline.Value
import Idealize.ShloMosaic.Lib.ValueIdx

noncomputable section

namespace Cert.Shuffle

open Idealize.ShloMosaic Idealize.ShloMosaic.ValueIdx

/-- The slab's convolution [32, 14, 256]; a slice of it [32, 14, 8]; the slice with its last two axes exchanged
    [32, 8, 14]; that flattened [256, 14]; and a stored piece [1, 1, 1, 256, 14]. -/
abbrev YS : Shape := ⟨3, ![32, 14, 256]⟩
abbrev SliceS : Shape := ⟨3, ![32, 14, 8]⟩
abbrev SwapS : Shape := ⟨3, ![32, 8, 14]⟩
abbrev FlatS : Shape := ⟨2, ![256, 14]⟩
abbrev PieceS : Shape := ⟨5, ![1, 1, 1, 256, 14]⟩

/-- Where a piece's entry comes from in the slab's convolution. -/
def pieceSrc (o : Nat) (ho : o + 8 ≤ 256) (x : PieceS.Idx) : YS.Idx :=
  ix3 ⟨(x 3).val / 8, by have h : (x 3).val < 256 := (x 3).isLt; omega⟩
    ⟨(x 4).val, (x 4).isLt⟩
    ⟨o + (x 3).val % 8, by omega⟩

/-- The piece cut at offset `o`, at a coordinate. -/
theorem piece_apply {α : Type} (Y : YS.Idx → α) (o : Nat) (ho : o + 8 ≤ 256)
    (hs : YS.Slices ![0, 0, o] SliceS) (ht : SliceS.Transposes [0, 2, 1] SwapS) (hc : SwapS.ShapeCasts FlatS)
    (hd : FlatS.ShapeCasts PieceS) (x : PieceS.Idx) :
    shapeCast PieceS (shapeCast FlatS (transpose SwapS [0, 2, 1] (extractStridedSlice SliceS ![0, 0, o] Y hs) ht) hc) hd x
      = Y (pieceSrc o ho x) := by
  have h0 : (x 0).val < 1 := (x 0).isLt
  have h1 : (x 1).val < 1 := (x 1).isLt
  have h2 : (x 2).val < 1 := (x 2).isLt
  have h3 : (x 3).val < 256 := (x 3).isLt
  have h4 : (x 4).val < 14 := (x 4).isLt
  -- the three unit axes carry nothing: [1, 1, 1, 256, 14] at x is [256, 14] at (x 3, x 4)
  refine (shapeCast_apply _ hd x (ix2 ⟨(x 3).val, h3⟩ ⟨(x 4).val, h4⟩)
    (by rw [Shape.rowMajor_val_two, Shape.rowMajor_val_five]
        show (x 3).val * 14 + (x 4).val = ((((x 0).val * 1 + (x 1).val) * 1 + (x 2).val) * 256 + (x 3).val) * 14 + (x 4).val
        omega)).trans ?_
  -- row r of the flattened array is (r / 8, r % 8) of the [32, 8, 14] array
  refine (shapeCast_apply _ hc _ (ix3 ⟨(x 3).val / 8, by omega⟩ ⟨(x 3).val % 8, by omega⟩ ⟨(x 4).val, h4⟩)
    (by rw [Shape.rowMajor_val_three, Shape.rowMajor_val_two]
        show ((x 3).val / 8 * 8 + (x 3).val % 8) * 14 + (x 4).val = (x 3).val * 14 + (x 4).val
        omega)).trans ?_
  -- the exchange of the last two axes
  refine (transpose_apply _ _ ht _ (ix3 ⟨(x 3).val / 8, by omega⟩ ⟨(x 4).val, h4⟩ ⟨(x 3).val % 8, by omega⟩)
    (fun b => match b with | ⟨0, _⟩ => rfl | ⟨1, _⟩ => rfl | ⟨2, _⟩ => rfl)).trans ?_
  -- the slice of the last axis at offset o
  exact extractStridedSlice_apply _ Y hs _ (pieceSrc o ho x)
    (fun a => match a with
      | ⟨0, _⟩ => by show (x 3).val / 8 = 0 + (x 3).val / 8; omega
      | ⟨1, _⟩ => by show (x 4).val = 0 + (x 4).val; omega
      | ⟨2, _⟩ => by show o + (x 3).val % 8 = o + (x 3).val % 8; rfl)

/-- The block a grid point writes: [1, 4, 8, 256, 14], axes (unit, r_t, r_h, w * 8 + r_w, c). -/
abbrev BlockS : Shape := ⟨5, ![1, 4, 8, 256, 14]⟩

/-- Where a block's entry comes from in the slab's convolution: (0, r_t, r_h, r, c) reads (r / 8, c, (r_t * 8 + r_h) * 8 + r % 8). -/
def blockSrc (y : BlockS.Idx) : YS.Idx :=
  ix3 ⟨(y 3).val / 8, by have h : (y 3).val < 256 := (y 3).isLt; omega⟩
    ⟨(y 4).val, (y 4).isLt⟩
    ⟨((y 1).val * 8 + (y 2).val) * 8 + (y 3).val % 8, by
      have h1 : (y 1).val < 4 := (y 1).isLt
      have h2 : (y 2).val < 8 := (y 2).isLt
      omega⟩

/-- The piece of (r_t, r_h) — cut at offset (r_t * 8 + r_h) * 8 — is the block's function read through the rectangle
    the piece is stored at: rows (0, r_t, r_h, ·, ·) of the block. -/
theorem piece_at_block {α : Type} (Y : YS.Idx → α) (rt rh o : Nat) (e : o = (rt * 8 + rh) * 8) (hrt : rt < 4) (hrh : rh < 8)
    (inb : ∀ a, (![0, rt, rh, 0, 0] : Fin BlockS.rank → Nat) a + PieceS.size a ≤ BlockS.size a)
    (hs : YS.Slices ![0, 0, o] SliceS) (ht : SliceS.Transposes [0, 2, 1] SwapS) (hc : SwapS.ShapeCasts FlatS)
    (hd : FlatS.ShapeCasts PieceS) (x : PieceS.Idx) :
    shapeCast PieceS (shapeCast FlatS (transpose SwapS [0, 2, 1] (extractStridedSlice SliceS ![0, 0, o] Y hs) ht) hc) hd x
      = Y (blockSrc ((Rect.unit (s := BlockS) ![0, rt, rh, 0, 0] PieceS.size inb).idx x)) := by
  have h1 : (x 1).val < 1 := (x 1).isLt
  have h2 : (x 2).val < 1 := (x 2).isLt
  refine (piece_apply Y o (by omega) hs ht hc hd x).trans (congrArg Y (funext fun a => Fin.ext ?_))
  match a with
  | ⟨0, _⟩ => show (x 3).val / 8 = (0 + 1 * (x 3).val) / 8; omega
  | ⟨1, _⟩ => show (x 4).val = 0 + 1 * (x 4).val; omega
  | ⟨2, _⟩ =>
    show o + (x 3).val % 8 = ((rt + 1 * (x 1).val) * 8 + (rh + 1 * (x 2).val)) * 8 + (0 + 1 * (x 3).val) % 8
    omega

end Cert.Shuffle

end
-- ==== Proof.KernelBlock.lean ====
/-
  What one grid point computes. At point (0, t, h) the body holds the slab x[0, t, h, :, :] as a [32, 1024] matrix,
  the whole weight and the bias, and forms Y = x_slab · W + bias as a [32, 3584] array viewed as [32, 14, 256]:
  Y (p, c, q) is the sum over the 1024 input channels k of x_slab (p, k) · W (k, c * 256 + q), plus bias (c * 256 + q)
  (`slab_apply`). It then stores Y in 32 pieces, one per (r_t, r_h), which tile the [1, 4, 8, 256, 14] block; every
  piece is the same re-laying of Y read through its own rectangle, so the block at (0, r_t, r_h, r, c) is
  Y (r / 8, c, (r_t * 8 + r_h) * 8 + r % 8) (`block_layout`). Together: the block entry is one channel sum of the slab
  (`block_apply`).
-/
import proofs.«176727_j60670708023496_2_alg».proof.Proof.Gen.KernelIdeal.Frame
import proofs.«176727_j60670708023496_2_alg».proof.Proof.LibPlainDot
import proofs.«176727_j60670708023496_2_alg».proof.Proof.Piece
import Idealize.ShloMosaic.Lib.Pipeline.Value
import Idealize.ShloMosaic.Lib.ValueIdx
import Idealize.ShloMosaic.PureOps.Ideal.Laws

set_option maxRecDepth 16384

noncomputable section

namespace Cert.Shuffle.Kernel

open Cert.KernelIdeal Cert.KernelIdeal.Gen Idealize.ShloMosaic Idealize.ShloMosaic.ValueIdx Cert.Shuffle
open scoped BigOperators

/-- The slab's convolution at pixel column `p` and convolution channel `d`: the channel sum plus the bias. -/
def slabConv (x0 : Vec Ideal S1x1x1x32x1024 .f32) (x1 : Vec Ideal S1024x3584 .f32) (x2 : Vec Ideal S1x3584 .f32)
    (p : Fin 32) (d : Fin 3584) : EReal :=
  (∑ k : Fin 1024, x0 (ix5 (0 : Fin 1) (0 : Fin 1) (0 : Fin 1) p k) * x1 (ix2 k d)) + x2 (ix2 (0 : Fin 1) d)

/-- The [32, 14, 256] array the body computes, at (p, c, q): the slab's convolution at channel c * 256 + q. The matrix
    product into a zero accumulator is the channel sum at the extended reals; the bias row is broadcast down the 32 rows;
    the final reshape splits the channel axis 3584 = 14 * 256 row-major. -/
theorem slab_apply (x0 : Vec Ideal S1x1x1x32x1024 .f32) (x1 : Vec Ideal S1024x3584 .f32) (x2 : Vec Ideal S1x3584 .f32)
    (p : Fin 32) (c : Fin 14) (q : Fin 256) :
    k0_pay5 (F := Ideal) x0 x1 x2 (ix3 p c q)
      = slabConv x0 x1 x2 p ⟨c.val * 256 + q.val, by have := c.isLt; have := q.isLt; omega⟩ := by
  have hc := c.isLt
  have hq := q.isLt
  unfold k0_pay5 slabConv
  refine (shapeCast_apply _ _ (ix3 p c q) (ix2 p (⟨c.val * 256 + q.val, by omega⟩ : Fin 3584))
    (by rw [Shape.rowMajor_val_two, Shape.rowMajor_val_three]
        show p.val * 3584 + (c.val * 256 + q.val) = (p.val * 14 + c.val) * 256 + q.val
        omega)).trans ?_
  refine (addf_apply _ _ _).trans ?_
  refine congrArg₂ (· + ·) ?_ ?_
  · refine (Cert.LibPlainDot.matmul_plain_apply dot_S32x1024_S1024x3584_S32x3584_1_0_0_1_n_n rfl rfl rfl rfl rfl rfl
      (some .fp32) _ _ p _).trans ?_
    refine Finset.sum_congr rfl fun k _ => ?_
    refine congrArg (· * x1 (ix2 k _)) ?_
    exact shapeCast_apply _ _ _ _
      (by rw [Shape.rowMajor_val_five, Shape.rowMajor_val_two]
          show ((((0 : Nat) * 1 + 0) * 1 + 0) * 32 + p.val) * 1024 + k.val = p.val * 1024 + k.val
          omega)
  · refine (broadcastTo_apply _ _ _ (ix2 (0 : Fin 1) (⟨c.val * 256 + q.val, by omega⟩ : Fin 3584))
      (fun a => match a with
        | ⟨0, _⟩ => by show (0 : Nat) = if (1 : Nat) = 1 then 0 else _; rfl
        | ⟨1, _⟩ => by show c.val * 256 + q.val = if (3584 : Nat) = 1 then 0 else c.val * 256 + q.val; rfl)).trans ?_
    exact congrFun (shapeCast_self x2 _) _

variable {F : FTy → Type} [FloatOps F]

theorem zero5 : (![0, 0, 0, 0, 0] : Fin 5 → Nat) = fun _ => 0 := funext fun a => by fin_cases a <;> rfl
theorem zero2 : (![0, 0] : Fin 2 → Nat) = fun _ => 0 := funext fun a => by fin_cases a <;> rfl

/-- The block after the body, at a coordinate: the body's [32, 14, 256] array at the place the piece covering the
    coordinate re-lays there. The 32 pieces are listed last store first; piece (r_t, r_h) is cut at offset (r_t * 8 + r_h) * 8. -/
theorem block_layout (x0 : Vec F S1x1x1x32x1024 .f32) (x1 : Vec F S1024x3584 .f32) (x2 : Vec F S1x3584 .f32)
    (y : S1x4x8x256x14.Idx) :
    out0_3 x0 x1 x2 y = k0_pay5 x0 x1 x2 (blockSrc y) := by
  unfold out0_3
  -- the three loads read the whole staging buffers
  simp only [View.ld_unit_zero (S := S1x1x1x32x1024) zero5, View.ld_unit_zero (S := S1024x3584) zero2,
    View.ld_unit_zero (S := S1x3584) zero2]
  refine View.canon_apply_of_pieces (fun y => k0_pay5 x0 x1 x2 (blockSrc y)) _ ?_ y
    (cover0_3 _ _ _ _ _ _ _ _ _ _ _ _ _ _ _ _ _ _ _ _ _ _ _ _ _ _ _ _ _ _ _ _ y)
  intro pc hpc x
  have ht : SliceS.Transposes [0, 2, 1] SwapS := by decide
  have hc : SwapS.ShapeCasts FlatS := by decide
  have hd : FlatS.ShapeCasts PieceS := by decide
  rcases List.mem_cons.mp hpc with rfl | hpc
  · exact piece_at_block (k0_pay5 x0 x1 x2) 3 7 248 rfl (by omega) (by omega) (by decide) (by decide) ht hc hd x
  rcases List.mem_cons.mp hpc with rfl | hpc
  · exact piece_at_block (k0_pay5 x0 x1 x2) 3 6 240 rfl (by omega) (by omega) (by decide) (by decide) ht hc hd x
  rcases List.mem_cons.mp hpc with rfl | hpc
  · exact piece_at_block (k0_pay5 x0 x1 x2) 3 5 232 rfl (by omega) (by omega) (by decide) (by decide) ht hc hd x
  rcases List.mem_cons.mp hpc with rfl | hpc
  · exact piece_at_block (k0_pay5 x0 x1 x2) 3 4 224 rfl (by omega) (by omega) (by decide) (by decide) ht hc hd x
  rcases List.mem_cons.mp hpc with rfl | hpc
  · exact piece_at_block (k0_pay5 x0 x1 x2) 3 3 216 rfl (by omega) (by omega) (by decide) (by decide) ht hc hd x
  rcases List.mem_cons.mp hpc with rfl | hpc
  · exact piece_at_block (k0_pay5 x0 x1 x2) 3 2 208 rfl (by omega) (by omega) (by decide) (by decide) ht hc hd x
  rcases List.mem_cons.mp hpc with rfl | hpc
  · exact piece_at_block (k0_pay5 x0 x1 x2) 3 1 200 rfl (by omega) (by omega) (by decide) (by decide) ht hc hd x
  rcases List.mem_cons.mp hpc with rfl | hpc
  · exact piece_at_block (k0_pay5 x0 x1 x2) 3 0 192 rfl (by omega) (by omega) (by decide) (by decide) ht hc hd x
  rcases List.mem_cons.mp hpc with rfl | hpc
  · exact piece_at_block (k0_pay5 x0 x1 x2) 2 7 184 rfl (by omega) (by omega) (by decide) (by decide) ht hc hd x
  rcases List.mem_cons.mp hpc with rfl | hpc
  · exact piece_at_block (k0_pay5 x0 x1 x2) 2 6 176 rfl (by omega) (by omega) (by decide) (by decide) ht hc hd x
  rcases List.mem_cons.mp hpc with rfl | hpc
  · exact piece_at_block (k0_pay5 x0 x1 x2) 2 5 168 rfl (by omega) (by omega) (by decide) (by decide) ht hc hd x
  rcases List.mem_cons.mp hpc with rfl | hpc
  · exact piece_at_block (k0_pay5 x0 x1 x2) 2 4 160 rfl (by omega) (by omega) (by decide) (by decide) ht hc hd x
  rcases List.mem_cons.mp hpc with rfl | hpc
  · exact piece_at_block (k0_pay5 x0 x1 x2) 2 3 152 rfl (by omega) (by omega) (by decide) (by decide) ht hc hd x
  rcases List.mem_cons.mp hpc with rfl | hpc
  · exact piece_at_block (k0_pay5 x0 x1 x2) 2 2 144 rfl (by omega) (by omega) (by decide) (by decide) ht hc hd x
  rcases List.mem_cons.mp hpc with rfl | hpc
  · exact piece_at_block (k0_pay5 x0 x1 x2) 2 1 136 rfl (by omega) (by omega) (by decide) (by decide) ht hc hd x
  rcases List.mem_cons.mp hpc with rfl | hpc
  · exact piece_at_block (k0_pay5 x0 x1 x2) 2 0 128 rfl (by omega) (by omega) (by decide) (by decide) ht hc hd x
  rcases List.mem_cons.mp hpc with rfl | hpc
  · exact piece_at_block (k0_pay5 x0 x1 x2) 1 7 120 rfl (by omega) (by omega) (by decide) (by decide) ht hc hd x
  rcases List.mem_cons.mp hpc with rfl | hpc
  · exact piece_at_block (k0_pay5 x0 x1 x2) 1 6 112 rfl (by omega) (by omega) (by decide) (by decide) ht hc hd x
  rcases List.mem_cons.mp hpc with rfl | hpc
  · exact piece_at_block (k0_pay5 x0 x1 x2) 1 5 104 rfl (by omega) (by omega) (by decide) (by decide) ht hc hd x
  rcases List.mem_cons.mp hpc with rfl | hpc
  · exact piece_at_block (k0_pay5 x0 x1 x2) 1 4 96 rfl (by omega) (by omega) (by decide) (by decide) ht hc hd x
  rcases List.mem_cons.mp hpc with rfl | hpc
  · exact piece_at_block (k0_pay5 x0 x1 x2) 1 3 88 rfl (by omega) (by omega) (by decide) (by decide) ht hc hd x
  rcases List.mem_cons.mp hpc with rfl | hpc
  · exact piece_at_block (k0_pay5 x0 x1 x2) 1 2 80 rfl (by omega) (by omega) (by decide) (by decide) ht hc hd x
  rcases List.mem_cons.mp hpc with rfl | hpc
  · exact piece_at_block (k0_pay5 x0 x1 x2) 1 1 72 rfl (by omega) (by omega) (by decide) (by decide) ht hc hd x
  rcases List.mem_cons.mp hpc with rfl | hpc
  · exact piece_at_block (k0_pay5 x0 x1 x2) 1 0 64 rfl (by omega) (by omega) (by decide) (by decide) ht hc hd x
  rcases List.mem_cons.mp hpc with rfl | hpc
  · exact piece_at_block (k0_pay5 x0 x1 x2) 0 7 56 rfl (by omega) (by omega) (by decide) (by decide) ht hc hd x
  rcases List.mem_cons.mp hpc with rfl | hpc
  · exact piece_at_block (k0_pay5 x0 x1 x2) 0 6 48 rfl (by omega) (by omega) (by decide) (by decide) ht hc hd x
  rcases List.mem_cons.mp hpc with rfl | hpc
  · exact piece_at_block (k0_pay5 x0 x1 x2) 0 5 40 rfl (by omega) (by omega) (by decide) (by decide) ht hc hd x
  rcases List.mem_cons.mp hpc with rfl | hpc
  · exact piece_at_block (k0_pay5 x0 x1 x2) 0 4 32 rfl (by omega) (by omega) (by decide) (by decide) ht hc hd x
  rcases List.mem_cons.mp hpc with rfl | hpc
  · exact piece_at_block (k0_pay5 x0 x1 x2) 0 3 24 rfl (by omega) (by omega) (by decide) (by decide) ht hc hd x
  rcases List.mem_cons.mp hpc with rfl | hpc
  · exact piece_at_block (k0_pay5 x0 x1 x2) 0 2 16 rfl (by omega) (by omega) (by decide) (by decide) ht hc hd x
  rcases List.mem_cons.mp hpc with rfl | hpc
  · exact piece_at_block (k0_pay5 x0 x1 x2) 0 1 8 rfl (by omega) (by omega) (by decide) (by decide) ht hc hd x
  rcases List.mem_cons.mp hpc with rfl | hpc
  · exact piece_at_block (k0_pay5 x0 x1 x2) 0 0 0 rfl (by omega) (by omega) (by decide) (by decide) ht hc hd x
  nomatch hpc

/-- The block at (0, r_t, r_h, r, c): the slab's convolution at pixel column r / 8 and channel
    c * 256 + (r_t * 8 + r_h) * 8 + r % 8. -/
theorem block_apply (x0 : Vec Ideal S1x1x1x32x1024 .f32) (x1 : Vec Ideal S1024x3584 .f32) (x2 : Vec Ideal S1x3584 .f32)
    (y : S1x4x8x256x14.Idx) :
    out0_3 (F := Ideal) x0 x1 x2 y
      = slabConv x0 x1 x2 ⟨(y 3).val / 8, by have h : (y 3).val < 256 := (y 3).isLt; omega⟩
          ⟨(y 4).val * 256 + (((y 1).val * 8 + (y 2).val) * 8 + (y 3).val % 8), by
            have h1 : (y 1).val < 4 := (y 1).isLt
            have h2 : (y 2).val < 8 := (y 2).isLt
            have h4 : (y 4).val < 14 := (y 4).isLt
            omega⟩ :=
  (block_layout x0 x1 x2 y).trans (slab_apply x0 x1 x2 _ _ _)

end Cert.Shuffle.Kernel

end
-- ==== Proof.KernelGrid.lean ====
/-
  The grid and the index maps. The grid has 1 * 8 * 32 points (0, t, h), visited in row-major order. The input's index map
  sends a point to block (0, t, h, 0, 0) of [1, 1, 1, 32, 1024] blocks, the output's to block (0, t, h, 0, 0) of
  [1, 4, 8, 256, 14] blocks, and the weight's and the bias row's to their one block (0, 0). These are finitely many
  closed facts about 256 points, decided by evaluation.
-/
import proofs.«176727_j60670708023496_2_alg».proof.Proof.Gen.KernelIdeal.Points

noncomputable section

namespace Cert.Shuffle.Kernel

open Cert.KernelIdeal Cert.KernelIdeal.Gen Idealize.ShloMosaic

/-- The index maps over the grid: the input's block moves with the output's on the three leading axes and stays at 0 on the
    last two; the weight and the bias row are always block (0, 0); the output's block is (0, t, h, 0, 0) with t < 8, h < 32. -/
theorem index_facts : ∀ t : Fin cfg0.N,
    win0_0.index t (0 : Fin 5) = win0_3.index t (0 : Fin 5)
    ∧ win0_0.index t (1 : Fin 5) = win0_3.index t (1 : Fin 5)
    ∧ win0_0.index t (2 : Fin 5) = win0_3.index t (2 : Fin 5)
    ∧ win0_0.index t (3 : Fin 5) = 0 ∧ win0_0.index t (4 : Fin 5) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 5) = 0 ∧ win0_3.index t (1 : Fin 5) < 8 ∧ win0_3.index t (2 : Fin 5) < 32
    ∧ win0_3.index t (3 : Fin 5) = 0 ∧ win0_3.index t (4 : Fin 5) = 0 :=
  (by decide +kernel : ∀ t : Fin grid0.N, _)

/-- Every (t, h) is some point's output block. -/
theorem index_onto : ∀ (q1 : Fin 8) (q2 : Fin 32), ∃ t : Fin cfg0.N, win0_3.index t = ![0, q1.val, q2.val, 0, 0] :=
  (by decide +kernel : ∀ (q1 : Fin 8) (q2 : Fin 32), ∃ t : Fin grid0.N, win0_3.index t = ![0, q1.val, q2.val, 0, 0])

end Cert.Shuffle.Kernel

end
-- ==== Proof.Spec.lean ====
/-
  The specification. A 1x1x1 convolution is a matrix product over the channel axis at every voxel, and the
  three-dimensional pixel shuffle only moves entries: output entry (0, T, H, W, c) of the [1, 32, 256, 256, 14]
  result is the convolution's entry at voxel (T / 4, H / 8, W / 8) and at channel
  c * 256 + (T % 4) * 64 + (H % 8) * 8 + W % 8 — the channel axis of extent 3584 = 14 * 4 * 8 * 8 read row-major as
  (c, r_t, r_h, r_w), the three sub-voxel offsets interleaved into the three spatial axes. So every output entry is
  one sum over the 1024 input channels plus one bias entry, and the function below says which.
-/
import Idealize.ShloMosaic.PureOps.Ideal
import Idealize.ShloMosaic.Lib.ValueIdx

noncomputable section

namespace Cert.Shuffle

open Idealize.ShloMosaic Idealize.ShloMosaic.ValueIdx
open scoped BigOperators

/-- The input [1, 8, 32, 32, 1024], the weight [1024, 3584], the bias [3584] and the result [1, 32, 256, 256, 14]. -/
abbrev XS : Shape := ⟨5, ![1, 8, 32, 32, 1024]⟩
abbrev WS : Shape := ⟨2, ![1024, 3584]⟩
abbrev BS : Shape := ⟨1, ![3584]⟩
abbrev OS : Shape := ⟨5, ![1, 32, 256, 256, 14]⟩

/-- The convolution channel an output entry comes from: (c, T % 4, H % 8, W % 8) read row-major in [14, 4, 8, 8]. -/
def chan (i : OS.Idx) : Fin 3584 :=
  ⟨(i 4).val * 256 + ((i 1).val % 4) * 64 + ((i 2).val % 8) * 8 + (i 3).val % 8, by
    have h4 : (i 4).val < 14 := (i 4).isLt
    omega⟩

/-- The input entry of channel `k` at the voxel an output entry comes from: (0, T / 4, H / 8, W / 8, k). -/
def voxel (i : OS.Idx) (k : Fin 1024) : XS.Idx :=
  ix5 ⟨0, Nat.one_pos⟩
    ⟨(i 1).val / 4, by have h : (i 1).val < 32 := (i 1).isLt; omega⟩
    ⟨(i 2).val / 8, by have h : (i 2).val < 256 := (i 2).isLt; omega⟩
    ⟨(i 3).val / 8, by have h : (i 3).val < 256 := (i 3).isLt; omega⟩ k

/-- The result: at every output entry, the product over the input channels at its voxel and channel, plus the bias. -/
def G (x : FVec Ideal XS .f32) (w : FVec Ideal WS .f32) (b : FVec Ideal BS .f32) : FVec Ideal OS .f32 :=
  fun i => (∑ k : Fin 1024, x (voxel i k) * w (ix2 k (chan i))) + b (ix1 (chan i))

end Cert.Shuffle

end
-- ==== Proof.KernelValue.lean ====
/-
  From blocks to the array. The grid has 1 * 8 * 32 points (0, t, h). Point (0, t, h) reads the slab x[0, t, h, :, :]
  (block (0, t, h, 0, 0) of the input), the whole weight and the whole bias row, and writes block (0, t, h, 0, 0) of the
  [1, 32, 256, 256, 14] result in blocks of [1, 4, 8, 256, 14]: block entry (0, r_t, r_h, r, c) is array entry
  (0, 4 t + r_t, 8 h + r_h, r, c). So the voxel of that array entry is (t, h, r / 8) and its channel
  c * 256 + r_t * 64 + r_h * 8 + r % 8, which is what the block holds (`block_apply`): every point writes its block of the
  specification. The 256 blocks tile the array — entry (0, T, H, W, c) lies in the block of point (0, T / 4, H / 8) —, so
  after the run the result array is the specification of the three arguments.
-/
import proofs.«176727_j60670708023496_2_alg».proof.Proof.Gen.KernelIdeal.Value
import proofs.«176727_j60670708023496_2_alg».proof.Proof.KernelBlock
import proofs.«176727_j60670708023496_2_alg».proof.Proof.KernelGrid
import proofs.«176727_j60670708023496_2_alg».proof.Proof.Spec
import Idealize.ShloMosaic.Lib.Pipeline.Value
import Idealize.ShloMosaic.Lib.StableHlo.Run
import Idealize.ShloMosaic.Lib.ValueIdx

set_option maxRecDepth 16384

noncomputable section

namespace Cert.Shuffle.Kernel

open Cert.KernelIdeal Cert.KernelIdeal.Gen Cert.KernelIdeal.Value Idealize.ShloMosaic Idealize.ShloMosaic.TcCoe Idealize.SL.Sem
open Idealize.ShloMosaic.ValueIdx Cert.Shuffle
open Idealize.ShloMosaic.Pipeline (Dat)
open scoped BigOperators

variable (m : (ℓ : Loc nD τ sig) → Buf (Elt Ideal) ℓ) (ρ : Dev nD → PrngReg)

/-- The bias row the region finds: the host has reshaped the bias [3584] to [1, 3584]. -/
theorem bias_row (c : Dev nD) :
    (V m c main_v0 : S1x3584.Idx → EReal)
      = shapeCast S1x3584 (m ((c : Thread nD τ).loc main_arg2)) shapeCasts_S3584_S1x3584 := by
  dsimp only [Gen.V, Gen.hostOps0]; after_results; rfl

/-- WHAT A POINT WRITES BACK is its block of the specification of the three arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [flushed3]
  obtain ⟨e0, e1, e2, e3, e4, e5, e6, e7, e8, e9, e10, e11, e12, e13⟩ := index_facts t
  funext y
  have h0 : (y 0).val < 1 := (y 0).isLt
  have h1 : (y 1).val < 4 := (y 1).isLt
  have h2 : (y 2).val < 8 := (y 2).isLt
  have h3 : (y 3).val < 256 := (y 3).isLt
  have h4 : (y 4).val < 14 := (y 4).isLt
  show out0_3 (iblk m c 0 t) (iblk m c 1 t) (iblk m c 2 t) y = G _ _ _ (((cfg0.win 3).blk t).view.emb y)
  rw [block_apply]
  unfold slabConv G
  refine congrArg₂ (· + ·) (Finset.sum_congr rfl fun k _ => congrArg₂ (· * ·) ?_ ?_) ?_
  · -- the slab's entry is the input's entry at the voxel
    show V m c main_arg0 (((cfg0.win 0).blk t).view.emb _) = _
    rw [V_main_arg0]
    refine congrArg _ (funext fun a => Fin.ext ?_)
    match a with
    | ⟨0, _⟩ => show win0_0.index t (0 : Fin 5) * 1 + 1 * 0 = 0; omega
    | ⟨1, _⟩ => show win0_0.index t (1 : Fin 5) * 1 + 1 * 0 = (win0_3.index t (1 : Fin 5) * 4 + 1 * (y 1).val) / 4; omega
    | ⟨2, _⟩ => show win0_0.index t (2 : Fin 5) * 1 + 1 * 0 = (win0_3.index t (2 : Fin 5) * 8 + 1 * (y 2).val) / 8; omega
    | ⟨3, _⟩ => show win0_0.index t (3 : Fin 5) * 32 + 1 * ((y 3).val / 8) = (win0_3.index t (3 : Fin 5) * 256 + 1 * (y 3).val) / 8; omega
    | ⟨4, _⟩ => show win0_0.index t (4 : Fin 5) * 1024 + 1 * k.val = k.val; omega
  · -- the weight's entry at the channel
    show V m c main_arg1 (((cfg0.win 1).blk t).view.emb _) = _
    rw [V_main_arg1]
    refine congrArg _ (funext fun a => Fin.ext ?_)
    match a with
    | ⟨0, _⟩ => show win0_1.index t (0 : Fin 2) * 1024 + 1 * k.val = k.val; omega
    | ⟨1, _⟩ =>
      show win0_1.index t (1 : Fin 2) * 3584 + 1 * ((y 4).val * 256 + (((y 1).val * 8 + (y 2).val) * 8 + (y 3).val % 8))
        = (win0_3.index t (4 : Fin 5) * 14 + 1 * (y 4).val) * 256 + (win0_3.index t (1 : Fin 5) * 4 + 1 * (y 1).val) % 4 * 64
          + (win0_3.index t (2 : Fin 5) * 8 + 1 * (y 2).val) % 8 * 8 + (win0_3.index t (3 : Fin 5) * 256 + 1 * (y 3).val) % 8
      omega
  · -- the bias row's entry at the channel
    show V m c main_v0 (((cfg0.win 2).blk t).view.emb _) = _
    rw [bias_row]
    refine shapeCast_apply (s := S3584) (t := S1x3584) _ _ _ _ ?_
    rw [Shape.rowMajor_val_one, Shape.rowMajor_val_two]
    show (win0_3.index t (4 : Fin 5) * 14 + 1 * (y 4).val) * 256 + (win0_3.index t (1 : Fin 5) * 4 + 1 * (y 1).val) % 4 * 64
          + (win0_3.index t (2 : Fin 5) * 8 + 1 * (y 2).val) % 8 * 8 + (win0_3.index t (3 : Fin 5) * 256 + 1 * (y 3).val) % 8
        = (win0_2.index t (0 : Fin 2) * 1 + 1 * 0) * 3584
          + (win0_2.index t (1 : Fin 2) * 3584 + 1 * ((y 4).val * 256 + (((y 1).val * 8 + (y 2).val) * 8 + (y 3).val % 8)))
    omega

/-- An entry of the array is in a point's block iff each coordinate is in the block's range on its axis. -/
theorem mem_block (t : Fin cfg0.N) (i : S1x32x256x256x14.Idx) :
    i ∈ ((cfg0.win 3).blk t).view.set ↔ ∀ a : Fin 5, win0_3.index t a * S1x4x8x256x14.size a ≤ (i a).val
      ∧ (i a).val < win0_3.index t a * S1x4x8x256x14.size a + S1x4x8x256x14.size a := by
  show i ∈ ((View.whole main_v1).slice (win0_3.rect t)).set ↔ _
  rw [View.set_slice_whole, Rect.mem_set_unit]
  exact Iff.rfl

/-- The blocks tile the array: entry (0, T, H, W, c) lies in the block of the point whose block index is (0, T / 4, H / 8, 0, 0). -/
theorem covered (i : S1x32x256x256x14.Idx) :
    ∃ t : Fin cfg0.N, (cfg0.win 3).flush t = true ∧ i ∈ ((cfg0.win 3).blk t).view.set := by
  have h0 : (i 0).val < 1 := (i 0).isLt
  have h1 : (i 1).val < 32 := (i 1).isLt
  have h2 : (i 2).val < 256 := (i 2).isLt
  have h3 : (i 3).val < 256 := (i 3).isLt
  have h4 : (i 4).val < 14 := (i 4).isLt
  obtain ⟨t, ht⟩ := index_onto ⟨(i 1).val / 4, by omega⟩ ⟨(i 2).val / 8, by omega⟩
  have q0 : win0_3.index t (0 : Fin 5) = 0 := congrFun ht 0
  have q1 : win0_3.index t (1 : Fin 5) = (i 1).val / 4 := congrFun ht 1
  have q2 : win0_3.index t (2 : Fin 5) = (i 2).val / 8 := congrFun ht 2
  have q3 : win0_3.index t (3 : Fin 5) = 0 := congrFun ht 3
  have q4 : win0_3.index t (4 : Fin 5) = 0 := congrFun ht 4
  refine ⟨t, flush0_3 t, ?_⟩
  rw [mem_block]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 4 ≤ (i 1).val ∧ (i 1).val < win0_3.index t (1 : Fin 5) * 4 + 4; omega
  | ⟨2, _⟩ => show win0_3.index t (2 : Fin 5) * 8 ≤ (i 2).val ∧ (i 2).val < win0_3.index t (2 : Fin 5) * 8 + 8; omega
  | ⟨3, _⟩ => show win0_3.index t (3 : Fin 5) * 256 ≤ (i 3).val ∧ (i 3).val < win0_3.index t (3 : Fin 5) * 256 + 256; omega
  | ⟨4, _⟩ => show win0_3.index t (4 : Fin 5) * 14 ≤ (i 4).val ∧ (i 4).val < win0_3.index t (4 : Fin 5) * 14 + 14; omega

/-- THE ARRAY after the run is the specification of the three arguments. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Shuffle.Kernel

end
-- ==== Proof.LibRowMajor8.lean ====
/-
  The row-major position of an index of a rank-8 shape, written as one nested sum of products: the leading
  coordinate weighs the product of all later extents, the last coordinate weighs one. With the rank-5 form this
  reads a reshape between a rank-5 and a rank-8 array at coordinates by linear arithmetic.
-/
import Idealize.ShloMosaic.Shape

namespace Cert.LibRowMajor8

open Idealize.ShloMosaic

/-- Rank 8: Horner form of the row-major position. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Cert.LibRowMajor8
-- ==== Proof.RefValue.lean ====
/-
  The reference computes the specification. It forms the convolution y[0, t, h, w, d] = sum_k x[0, t, h, w, k] · W[k, d]
  + bias[d] for all 8 * 32 * 32 voxels at once, splits the channel axis d row-major as (c, r_t, r_h, r_w) in [14, 4, 8, 8],
  moves the axes to (0, t, r_t, h, r_h, w, r_w, c) and merges (t, r_t), (h, r_h), (w, r_w). Read backwards from an output
  entry (0, T, H, W, c): the merge puts it at (0, T / 4, T % 4, H / 8, H % 8, W / 8, W % 8, c), the axis move at
  (0, T / 4, H / 8, W / 8, c, T % 4, H % 8, W % 8), and the split at voxel (T / 4, H / 8, W / 8), channel
  c * 256 + (T % 4) * 64 + (H % 8) * 8 + W % 8 — the specification's voxel and channel.
-/
import proofs.«176727_j60670708023496_2_alg».proof.Proof.Gen.ReferenceIdeal.Read
import proofs.«176727_j60670708023496_2_alg».proof.Proof.LibRowMajor8
import proofs.«176727_j60670708023496_2_alg».proof.Proof.Spec
import Idealize.ShloMosaic.Lib.Pipeline.Value
import Idealize.ShloMosaic.Lib.ValueIdx

set_option maxRecDepth 16384

noncomputable section

namespace Cert.Shuffle.Reference

open Cert.ReferenceIdeal Cert.ReferenceIdeal.Gen Cert.ReferenceIdeal.Read Idealize.ShloMosaic Idealize.ShloMosaic.ValueIdx Cert.Shuffle
open scoped BigOperators

/-- An output entry before the three merges: (0, T / 4, T % 4, H / 8, H % 8, W / 8, W % 8, c). -/
def unmerged (i : S1x32x256x256x14.Idx) : S1x8x4x32x8x32x8x14.Idx := fun a => match a with
  | ⟨0, _⟩ => ⟨0, Nat.one_pos⟩
  | ⟨1, _⟩ => ⟨(i 1).val / 4, by have h : (i 1).val < 32 := (i 1).isLt; show (i 1).val / 4 < 8; omega⟩
  | ⟨2, _⟩ => ⟨(i 1).val % 4, by show (i 1).val % 4 < 4; omega⟩
  | ⟨3, _⟩ => ⟨(i 2).val / 8, by have h : (i 2).val < 256 := (i 2).isLt; show (i 2).val / 8 < 32; omega⟩
  | ⟨4, _⟩ => ⟨(i 2).val % 8, by show (i 2).val % 8 < 8; omega⟩
  | ⟨5, _⟩ => ⟨(i 3).val / 8, by have h : (i 3).val < 256 := (i 3).isLt; show (i 3).val / 8 < 32; omega⟩
  | ⟨6, _⟩ => ⟨(i 3).val % 8, by show (i 3).val % 8 < 8; omega⟩
  | ⟨7, _⟩ => ⟨(i 4).val, (i 4).isLt⟩

/-- The convolution entry an output entry is: voxel (T / 4, H / 8, W / 8), the specification's channel. -/
def convIdx (i : S1x32x256x256x14.Idx) : S1x8x32x32x3584.Idx :=
  ix5 ⟨0, Nat.one_pos⟩
    ⟨(i 1).val / 4, by have h : (i 1).val < 32 := (i 1).isLt; omega⟩
    ⟨(i 2).val / 8, by have h : (i 2).val < 256 := (i 2).isLt; omega⟩
    ⟨(i 3).val / 8, by have h : (i 3).val < 256 := (i 3).isLt; omega⟩ (chan i)

/-- The reference's result is the specification of its three arguments. -/
theorem result_eq (x0 : (⟨S1x8x32x32x1024, .f32⟩ : BufTy).Contents (Elt Ideal)) (x1 : (⟨S1024x3584, .f32⟩ : BufTy).Contents (Elt Ideal))
    (x2 : (⟨S3584, .f32⟩ : BufTy).Contents (Elt Ideal)) :
    val_main_v6 (F := Ideal) x0 x1 x2 = G x0 x1 x2 := by
  funext i
  have h0 : (i 0).val < 1 := (i 0).isLt
  have h1 : (i 1).val < 32 := (i 1).isLt
  have h2 : (i 2).val < 256 := (i 2).isLt
  have h3 : (i 3).val < 256 := (i 3).isLt
  have h4 : (i 4).val < 14 := (i 4).isLt
  unfold val_main_v6
  -- the three merges: same row-major position
  refine (shapeCast_apply _ _ i (unmerged i)
    (by rw [Cert.LibRowMajor8.rowMajor_val_eight, Shape.rowMajor_val_five]
        show ((((((0 * 8 + (i 1).val / 4) * 4 + (i 1).val % 4) * 32 + (i 2).val / 8) * 8 + (i 2).val % 8) * 32
              + (i 3).val / 8) * 8 + (i 3).val % 8) * 14 + (i 4).val
            = ((((i 0).val * 32 + (i 1).val) * 256 + (i 2).val) * 256 + (i 3).val) * 14 + (i 4).val
        omega)).trans ?_
  -- the axis move
  refine (val_main_v5_apply (F := Ideal) x0 x1 x2 _).trans ?_
  unfold val_main_v4
  -- the split of the channel axis: same row-major position
  refine (shapeCast_apply _ _ _ (convIdx i)
    (by rw [Shape.rowMajor_val_five, Cert.LibRowMajor8.rowMajor_val_eight]
        show (((0 * 8 + (i 1).val / 4) * 32 + (i 2).val / 8) * 32 + (i 3).val / 8) * 3584
              + ((i 4).val * 256 + (i 1).val % 4 * 64 + (i 2).val % 8 * 8 + (i 3).val % 8)
            = ((((((0 * 8 + (i 1).val / 4) * 32 + (i 2).val / 8) * 32 + (i 3).val / 8) * 14 + (i 4).val) * 4
              + (i 1).val % 4) * 8 + (i 2).val % 8) * 8 + (i 3).val % 8
        omega)).trans ?_
  -- the convolution entry: the channel sum plus the bias
  rw [val_main_v3_apply, val_main_v0_apply, val_main_v2_apply, val_main_v1_apply]
  have el : ∀ k : Fin 1024, lidx_main_v0 (convIdx i) k = voxel i k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 1024, ridx_main_v0 (convIdx i) k = ix2 k (chan i) := fun k => funext fun a => Fin.ext (by
    match a with
    | ⟨0, _⟩ => rfl
    | ⟨1, _⟩ => rfl)
  have eb : idx_main_v1 (idx_main_v2 (convIdx i)) = ix1 (chan i) := funext fun a => Fin.ext (by
    match a with
    | ⟨0, _⟩ => rfl)
  simp only [el, er, eb]
  rfl

end Cert.Shuffle.Reference

end
-- ==== Proof.lean ====
/-
  A 1x1x1 convolution fused with a three-dimensional pixel shuffle, against the einsum, reshape, transpose and reshape
  that define it.

  Both programs compute, for the input x [1, 8, 32, 32, 1024], the weight W [1024, 3584] and the bias b [3584], the array
  [1, 32, 256, 256, 14] whose entry (0, T, H, W', c) is

      sum over k < 1024 of x[0, T / 4, H / 8, W' / 8, k] · W[k, d]  +  b[d],     d = c * 256 + (T % 4) * 64 + (H % 8) * 8 + W' % 8

  (Proof/Spec.lean). The reference forms the convolution at all voxels, splits the channel axis as (c, r_t, r_h, r_w),
  moves the three sub-voxel axes next to their spatial axes and merges them (Proof/RefValue.lean). The kernel visits the
  8 * 32 slabs (t, h): it multiplies the slab's [32, 1024] matrix by the weight, adds the bias row, and stores the
  [32, 3584] result in 32 pieces, one per (r_t, r_h), each a slice of 8 channels per output channel with its last two axes
  exchanged, into the slab's [1, 4, 8, 256, 14] block of the result (Proof/Piece.lean, Proof/KernelBlock.lean); the 256
  blocks tile the result (Proof/KernelValue.lean). On the extended reals the matrix product into a zero accumulator and
  the host's contraction are the same sum over k in the same order, and everything else only moves entries, so no law
  beyond that is used and the finiteness of the inputs is never opened. The kernel's idealization rewrites nothing, so
  `preserves` has no conjunct.
-/
import proofs.«176727_j60670708023496_2_alg».proof.Defs
import proofs.«176727_j60670708023496_2_alg».proof.Proof.Gen.Kernel
import proofs.«176727_j60670708023496_2_alg».proof.Proof.Gen.Kernel.Skeleton
import proofs.«176727_j60670708023496_2_alg».proof.Proof.Gen.Kernel.Launch
import proofs.«176727_j60670708023496_2_alg».proof.Proof.Gen.Kernel.Points
import proofs.«176727_j60670708023496_2_alg».proof.Proof.Gen.Kernel.Frame
import proofs.«176727_j60670708023496_2_alg».proof.Proof.Gen.KernelIdeal
import proofs.«176727_j60670708023496_2_alg».proof.Proof.Gen.KernelIdeal.Skeleton
import proofs.«176727_j60670708023496_2_alg».proof.Proof.Gen.KernelIdeal.Launch
import proofs.«176727_j60670708023496_2_alg».proof.Proof.Gen.KernelIdeal.Points
import proofs.«176727_j60670708023496_2_alg».proof.Proof.Gen.KernelIdeal.Frame
import proofs.«176727_j60670708023496_2_alg».proof.Proof.Gen.KernelIdeal.Value
import proofs.«176727_j60670708023496_2_alg».proof.Proof.Gen.ReferenceIdeal
import proofs.«176727_j60670708023496_2_alg».proof.Proof.Gen.ReferenceIdeal.Run
import proofs.«176727_j60670708023496_2_alg».proof.Proof.Gen.ReferenceIdeal.Read
import proofs.«176727_j60670708023496_2_alg».proof.Proof.Gen.Pre_finite_inputs
import proofs.«176727_j60670708023496_2_alg».proof.Proof.KernelValue
import proofs.«176727_j60670708023496_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is seven host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification of its arguments (the 256 blocks, each its
    block of the specification) and the reference's at the specification of its own; the arguments agree. -/
theorem algebraic : Cert.algebraic_KernelIdeal_ReferenceIdeal := by
  intro m ρ m' ρ' _ hagree
  refine ⟨fun c => Cert.Shuffle.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Shuffle.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Shuffle.Reference.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
